-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S10000x64 : Shape := ⟨2, ![10000, 64]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 64
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S64x64, .f32⟩
  | .hbm, ⟨9, _⟩ => ⟨S100000x64, .f32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S100000x64, .f32⟩
  | .hbm, ⟨53, _⟩ => ⟨S1000000x1, .i32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S64x64, .f32⟩
  | .hbm, ⟨9, _⟩ => ⟨S100000x64, .f32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000, .f32⟩
  | .hbm, ⟨38, _⟩ => ⟨S1000000, .f32⟩
  | .hbm, ⟨39, _⟩ => ⟨S1000000x1, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S1000000x64, .f32⟩
  | .hbm, ⟨50, _⟩ => ⟨S1000000x64, .f32⟩
  | .hbm, ⟨51, _⟩ => ⟨S_, .f32⟩
  | .hbm, ⟨52, _⟩ => ⟨S100000x64, .f32⟩
  | .hbm, ⟨53, _⟩ => ⟨S1000000x1, .i32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call0_cst : Ref sig .tc := ⟨.hbm, 66, rfl⟩
abbrev main_call0_v0 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S64x64_S64x64_1_0 : S64x64.Transposes [1, 0] S64x64
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.EpilogueValue.lean ====
/-
  The epilogue stage: what the second kernel leaves in its output array.

  The kernel walks the same ten row tiles. At tile `t` it loads rows `10000·t … 10000·t + 9999` of the aggregated
  array and of the self-loop array, and the one 1×64 bias row; adds the two tiles, adds the bias row to every row, takes
  the maximum with zero, and writes the tile back to the same rows of the output. Every operation is entry by entry, so
  the tiles are the restrictions of ONE whole-array function — entry `(r, q)` is
  `max ((a (r, q) + s (r, q)) + bias (0, q)) 0` — and the ten tiles cover every row.
-/
import proofs.«170078_j88527865905439_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Epilogue

open Cert.KernelIdeal Cert.KernelIdeal.Gen Idealize.ShloMosaic Idealize.ShloMosaic.TcCoe Idealize.SL.Sem
open Idealize.ShloMosaic.ValueIdx
open Idealize.ShloMosaic.Pipeline (Dat)

/-- Add the two arrays, add the bias row to every row, clamp below at zero. -/
def biasRelu (a s : FVec Ideal S100000x64 .f32) (brow : FVec Ideal S1x64 .f32) : FVec Ideal S100000x64 .f32 :=
  fun i => max ((a i + s i) + brow (ix2 (0 : Fin 1) (i 1))) (FloatOps.ofBits (F := Ideal) .f32 0x00000000#32)

/-- The body's value at `(p, q)`: the trivial reshapes drop out, the bias row is read at column `q`. -/
theorem tile_apply (x0 x1 : Vec Ideal S10000x64 .f32) (x2 : Vec Ideal S1x64 .f32) (p : Fin 10000) (q : Fin 64) :
    k1_pay1 (F := Ideal) x0 x1 x2 (ix2 p q)
      = max ((x0 (ix2 p q) + x1 (ix2 p q)) + x2 (ix2 (0 : Fin 1) q)) (FloatOps.ofBits (F := Ideal) .f32 0x00000000#32) := by
  have e0 : shapeCast S10000x64 x0 shapeCasts_S10000x64_S10000x64 = x0 := shapeCast_self _ _
  have e1 : shapeCast S10000x64 x1 shapeCasts_S10000x64_S10000x64 = x1 := shapeCast_self _ _
  have e2 : shapeCast S1x64 x2 shapeCasts_S1x64_S1x64 = x2 := shapeCast_self _ _
  have e3 := broadcastTo_1b_ab_apply (a := 10000) (b := 64) x2 broadcasts_S1x64_S10000x64 p q
  unfold k1_pay1
  simp only [e0, e1, e2]
  show max ((x0 (ix2 p q) + x1 (ix2 p q)) + broadcastTo S10000x64 x2 broadcasts_S1x64_S10000x64 (ix2 p q)) _ = _
  rw [e3]
  rfl

/-- A tile's value against the whole arrays. -/
theorem tile_eq (x0 x1 : Vec Ideal S10000x64 .f32) (x2 : Vec Ideal S1x64 .f32)
    (A S : FVec Ideal S100000x64 .f32) (B : FVec Ideal S1x64 .f32) (r : Nat)
    (h0 : ∀ (p : Fin 10000) (q : Fin 64) (i' : S100000x64.Idx), (i' 0).val = r * 10000 + p.val → (i' 1).val = q.val → x0 (ix2 p q) = A i')
    (h1 : ∀ (p : Fin 10000) (q : Fin 64) (i' : S100000x64.Idx), (i' 0).val = r * 10000 + p.val → (i' 1).val = q.val → x1 (ix2 p q) = S i')
    (h2 : ∀ (q : Fin 64), x2 (ix2 (0 : Fin 1) q) = B (ix2 (0 : Fin 1) q))
    (j : S10000x64.Idx) (i : S100000x64.Idx) (hi0 : (i 0).val = r * 10000 + (j 0).val) (hi1 : (i 1).val = (j 1).val) :
    k1_pay1 (F := Ideal) x0 x1 x2 j = biasRelu A S B i := by
  obtain ⟨p, q, rfl⟩ : ∃ (p : Fin 10000) (q : Fin 64), j = ix2 p q := ⟨j 0, j 1, eq_ix2 j⟩
  rw [tile_apply]
  unfold biasRelu
  have hq : i 1 = q := Fin.ext hi1
  rw [h0 p q i hi0 hi1, h1 p q i hi0 hi1, h2 q, hq]

/-! ## From tiles to the array -/

section Array

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two input tiles and the output tile sit at tile row `t`, column block 0;
    the bias row is always its one whole block. -/
theorem tile_positions : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What tile `t` writes back is tile `t` of the bias-add-clamp of the three input arrays. -/
theorem flushed_eq (c : Dev nD) (t : Fin cfg1.N) :
    (dat1 V c).flushed 3 t = ((cfg1.win 3).blk t).view.read (Elt Ideal) (biasRelu (V c main_v40) (V c main_v46) (V c main_v47)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin]
  obtain ⟨e0, e1, e2, e3, e4, e5, e6, e7⟩ := tile_positions t
  funext j
  show k1_pay1 (F := Ideal) (iblk1 V c 0 t) (iblk1 V c 1 t) (iblk1 V c 2 t) j
    = biasRelu (V c main_v40) (V c main_v46) (V c main_v47) (((cfg1.win 3).blk t).view.emb j)
  refine tile_eq (iblk1 V c 0 t) (iblk1 V c 1 t) (iblk1 V c 2 t) (V c main_v40) (V c main_v46) (V c main_v47) t.val ?_ ?_ ?_ j
    (((cfg1.win 3).blk t).view.emb j) ?_ ?_
  · intro p q i' hi0 hi1
    show V c main_v40 (((cfg1.win 0).blk t).view.emb (ix2 p q)) = V c main_v40 i'
    refine congrArg _ (funext fun a => Fin.ext ?_)
    match a with
    | ⟨0, _⟩ => show win1_0.index t (0 : Fin 2) * 10000 + 1 * p.val = (i' 0).val; omega
    | ⟨1, _⟩ => show win1_0.index t (1 : Fin 2) * 64 + 1 * q.val = (i' 1).val; omega
  · intro p q i' hi0 hi1
    show V c main_v46 (((cfg1.win 1).blk t).view.emb (ix2 p q)) = V c main_v46 i'
    refine congrArg _ (funext fun a => Fin.ext ?_)
    match a with
    | ⟨0, _⟩ => show win1_1.index t (0 : Fin 2) * 10000 + 1 * p.val = (i' 0).val; omega
    | ⟨1, _⟩ => show win1_1.index t (1 : Fin 2) * 64 + 1 * q.val = (i' 1).val; omega
  · intro q
    show V c main_v47 (((cfg1.win 2).blk t).view.emb (ix2 (0 : Fin 1) q)) = V c main_v47 (ix2 (0 : Fin 1) q)
    refine congrArg _ (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 64 + 1 * q.val = q.val; omega
  · show win1_3.index t (0 : Fin 2) * 10000 + 1 * (j 0).val = t.val * 10000 + (j 0).val; omega
  · show win1_3.index t (1 : Fin 2) * 64 + 1 * (j 1).val = (j 1).val; omega

/-- An index of the output array is in tile `t` iff each coordinate is in the tile's range on its axis. -/
theorem mem_tile (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- Row `r` lies in tile `r / 10000`: the ten tiles cover the array. -/
theorem tiles_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨e0, e1, e2, e3, e4, e5, e6, e7⟩ := tile_positions ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_tile]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    omega

/-- The output array after the region: the bias-add-clamp of the three input arrays as the region found them. -/
theorem final (c : Dev nD) : (dat1 V c).arrAt 3 cfg1.N = biasRelu (V c main_v40) (V c main_v46) (V c main_v47) :=
  (dat1 V c).arrAt_eq_of_cover 3 _ (fun t _ => flushed_eq V c t) tiles_cover

end Array

end Cert.KernelIdeal.Epilogue

end
-- ==== Proof.LinearValue.lean ====
/-
  The linear stage: what the first kernel leaves in its output array.

  The kernel walks ten row tiles of 10000 rows each. At tile `t` it loads rows `10000·t … 10000·t + 9999` of the
  left array (all 64 columns) and the whole 64×64 right array, rounds both to the narrow format (the identity on
  exact values), multiplies them into a zero accumulator, and writes the 10000×64 product back to the same rows
  of the output. Entry `(p, q)` of a tile's product is `∑ k, left (p, k) · right (k, q)`, so the row tiles are the
  restrictions of ONE whole-array function, rows times columns; the ten tiles cover every row, hence the output array
  ends holding that function of the two input arrays as the region found them.
-/
import proofs.«170078_j88527865905439_1_alg».proof.Proof.Gen.KernelIdeal.Frame
import proofs.«170078_j88527865905439_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-- Rows times columns: entry `(r, q)` is the sum over `k` of `x (r, k) · wt (k, q)`. -/
def rowsTimesCols (x : S100000x64.Idx → EReal) (wt : S64x64.Idx → EReal) : S100000x64.Idx → EReal :=
  fun i => ∑ k : Fin 64, x (ix2 (i 0) k) * wt (ix2 k (i 1))

/-! ## Where the tile product reads its operands -/

abbrev tileDot := dot_S10000x64_S64x64_S10000x64_1_0_0_1_n_n

theorem tileDot_l0 (i : S10000x64.Idx) (q : tileDot.contr.Idx) : (tileDot.lhsIdx i q 0).val = (i 0).val := by
  unfold DotDims.lhsIdx
  rw [dif_neg (show ¬(0 : Fin S10000x64.rank) ∈ tileDot.lhsBatch by decide), dif_pos (show (0 : Fin S10000x64.rank) ∈ tileDot.lhsNonContracting by decide)]
  rfl
theorem tileDot_l1 (i : S10000x64.Idx) (q : tileDot.contr.Idx) : (tileDot.lhsIdx i q 1).val = (q ⟨0, by decide⟩).val :=
  tileDot.lhsIdx_val_of_single rfl i q
theorem tileDot_r0 (i : S10000x64.Idx) (q : tileDot.contr.Idx) : (tileDot.rhsIdx i q 0).val = (q ⟨0, by decide⟩).val :=
  tileDot.rhsIdx_val_of_single rfl i q
theorem tileDot_r1 (i : S10000x64.Idx) (q : tileDot.contr.Idx) : (tileDot.rhsIdx i q 1).val = (i 1).val := by
  unfold DotDims.rhsIdx
  rw [dif_neg (show ¬(1 : Fin S64x64.rank) ∈ tileDot.rhsBatch by decide), dif_pos (show (1 : Fin S64x64.rank) ∈ tileDot.rhsNonContracting by decide)]
  rfl

/-- The body's product at `(p, q)`: the narrowing casts and the trivial reshape drop out at exact values, and the
    product into the zero accumulator is the sum over the contracted axis. -/
theorem tile_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  refine (matmul_zero_plain_apply tileDot none rfl rfl tileDot_l0 tileDot_l1 tileDot_r0 tileDot_r1
    (truncf .bf16 x0 bitsLt_bf16_f32) (truncf .bf16 (shapeCast S64x64 x1 shapeCasts_S64x64_S64x64) bitsLt_bf16_f32) p q).trans ?_
  refine Finset.sum_congr rfl fun k _ => ?_
  rw [truncf_apply, truncf_apply, shapeCast_self]

/-- A tile's product against the whole arrays: if the tile's left block is rows `10000·r + p` of `X` and its right
    block is all of `Wt`, then its entry `j` is entry `i` of rows times columns whenever `i` is `j` moved down `r` tiles. -/
theorem tile_eq (x0 : Vec Ideal S10000x64 .f32) (x1 : Vec Ideal S64x64 .f32) (X : S100000x64.Idx → EReal) (Wt : S64x64.Idx → EReal)
    (r : Nat)
    (h0 : ∀ (p : Fin 10000) (k : Fin 64) (i' : S100000x64.Idx), (i' 0).val = r * 10000 + p.val → (i' 1).val = k.val → x0 (ix2 p k) = X i')
    (h1 : ∀ (k q : Fin 64), x1 (ix2 k q) = Wt (ix2 k q))
    (j : S10000x64.Idx) (i : S100000x64.Idx) (hi0 : (i 0).val = r * 10000 + (j 0).val) (hi1 : (i 1).val = (j 1).val) :
    k0_pay1 (F := Ideal) x0 x1 j = rowsTimesCols X Wt i := by
  obtain ⟨p, q, rfl⟩ : ∃ (p : Fin 10000) (q : Fin 64), j = ix2 p q := ⟨j 0, j 1, eq_ix2 j⟩
  rw [tile_apply]
  unfold rowsTimesCols
  refine Finset.sum_congr rfl fun k _ => ?_
  have hq : i 1 = q := Fin.ext hi1
  rw [h0 p k (ix2 (i 0) k) hi0 rfl, h1 k q, hq]

/-! ## From tiles to the array -/

section Array

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the left and output tiles sit at tile row `t`, column block 0; the right
    operand is always its one whole block. -/
theorem tile_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile `t` writes back is tile `t` of rows times columns of the two input arrays. -/
theorem flushed_eq (c : Dev nD) (t : Fin cfg0.N) :
    (dat0 V c).flushed 2 t = ((cfg0.win 2).blk t).view.read (Elt Ideal) (rowsTimesCols (V c main_arg0) (V c main_v4)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := tile_positions t
  funext j
  show k0_pay1 (F := Ideal) (iblk0 V c 0 t) (iblk0 V c 1 t) j = rowsTimesCols (V c main_arg0) (V c main_v4) (((cfg0.win 2).blk t).view.emb j)
  refine tile_eq (iblk0 V c 0 t) (iblk0 V c 1 t) (V c main_arg0) (V c main_v4) t.val ?_ ?_ j (((cfg0.win 2).blk t).view.emb j) ?_ ?_
  · intro p k i' hi0 hi1
    show V c main_arg0 (((cfg0.win 0).blk t).view.emb (ix2 p k)) = V c main_arg0 i'
    refine congrArg _ (funext fun a => Fin.ext ?_)
    match a with
    | ⟨0, _⟩ => show win0_0.index t (0 : Fin 2) * 10000 + 1 * p.val = (i' 0).val; omega
    | ⟨1, _⟩ => show win0_0.index t (1 : Fin 2) * 64 + 1 * k.val = (i' 1).val; omega
  · intro k q
    show V c main_v4 (((cfg0.win 1).blk t).view.emb (ix2 k q)) = V c main_v4 (ix2 k q)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = q.val; omega
  · show win0_2.index t (0 : Fin 2) * 10000 + 1 * (j 0).val = t.val * 10000 + (j 0).val; omega
  · show win0_2.index t (1 : Fin 2) * 64 + 1 * (j 1).val = (j 1).val; omega

/-- An index of the output array is in tile `t` iff each coordinate is in the tile's range on its axis. -/
theorem mem_tile (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v5).slice (win0_2.rect t)).set ↔ _
  rw [View.set_slice_whole, Rect.mem_set_unit]
  exact Iff.rfl

/-- Row `r` lies in tile `r / 10000`: the ten tiles cover the array. -/
theorem tiles_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e0, e1, e2, e3, e4, e5⟩ := tile_positions ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_tile]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    omega

/-- The output array after the region: rows times columns of the two input arrays as the region found them. -/
theorem final (c : Dev nD) : (dat0 V c).arrAt 2 cfg0.N = rowsTimesCols (V c main_arg0) (V c main_v4) :=
  (dat0 V c).arrAt_eq_of_cover 2 _ (fun t _ => flushed_eq V c t) tiles_cover

end Array

end Cert.KernelIdeal.Linear

end
-- ==== Proof.MessagePassing.lean ====
/-
  The message-passing chain both programs share, and the reference's result through it.

  Both programs compute, from the edge array alone, the degree of every node (a scatter of ones over the destination
  row, plus 2), its inverse square root `dinv`, and the edge weight `dinv[src] · dinv[dst]`; and then, from the
  transformed features `xw`, the aggregated messages (the weighted rows `xw[src]` scattered over the destinations) and
  the self-loop term `2 · dinv² · xw`. The two programs differ only in how `xw` itself is produced, so the chain is
  carried here as two functions of `xw` and the edge array, never opened: `aggregate` and `selfLoop`.

  The reference's result is then the entry-by-entry `max ((aggregate + selfLoop) + bias) 0` at `xw` the host's matrix
  product of the features with the transposed weights; and that product is rows times columns, entry by entry, at exact
  values.
-/
import proofs.«170078_j88527865905439_1_alg».proof.Proof.Gen.ReferenceIdeal.Read
import proofs.«170078_j88527865905439_1_alg».proof.Proof.LibDense
import proofs.«170078_j88527865905439_1_alg».proof.Proof.EpilogueValue
import proofs.«170078_j88527865905439_1_alg».proof.Proof.LinearValue

set_option maxRecDepth 16384

noncomputable section

namespace Cert.MessagePassing

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

section Chain

variable {F : FTy → Type} [FloatOps F]

/-- The weighted source rows of `xw`, summed over the edges into their destination rows. -/
def aggregate (xw : (⟨S100000x64, .f32⟩ : BufTy).Contents (Elt F)) (ei : (⟨S2x1000000, .i32⟩ : BufTy).Contents (Elt F)) :
    (⟨S100000x64, .f32⟩ : BufTy).Contents (Elt F) :=
  Host.scatterAdd scatter_S100000x64_S1000000x1_S1000000x64_1_0_0_1 (val_main_v38 (F := F)) (val_main_v39 (F := F) ei)
    (mulf (val_main_v36 (F := F) ei)
      (Host.gather gather_S100000x64_S1000000x1_S1000000x64_1_0_n_n_0_1_164 xw (val_main_v34 (F := F) ei)))

/-- Every row of `xw` scaled by twice the square of its node's inverse root degree. -/
def selfLoop (xw : (⟨S100000x64, .f32⟩ : BufTy).Contents (Elt F)) (ei : (⟨S2x1000000, .i32⟩ : BufTy).Contents (Elt F)) :
    (⟨S100000x64, .f32⟩ : BufTy).Contents (Elt F) :=
  mulf (val_main_v45 (F := F) ei) xw

/-- The reference's aggregation stage is the chain at its own product. -/
theorem aggregate_ref (x0 : (⟨S100000x64, .f32⟩ : BufTy).Contents (Elt F)) (x1 : (⟨S2x1000000, .i32⟩ : BufTy).Contents (Elt F))
    (x2 : (⟨S64x64, .f32⟩ : BufTy).Contents (Elt F)) :
    val_main_v40 (F := F) x0 x1 x2 = aggregate (val_main_v5 (F := F) x0 x2) x1 := rfl

/-- The reference's self-loop stage is the chain at its own product. -/
theorem selfLoop_ref (x0 : (⟨S100000x64, .f32⟩ : BufTy).Contents (Elt F)) (x1 : (⟨S2x1000000, .i32⟩ : BufTy).Contents (Elt F))
    (x2 : (⟨S64x64, .f32⟩ : BufTy).Contents (Elt F)) :
    val_main_v46 (F := F) x0 x1 x2 = selfLoop (val_main_v5 (F := F) x0 x2) x1 := rfl

end Chain

open Cert.KernelIdeal.Epilogue (biasRelu)
open Cert.KernelIdeal.Linear (rowsTimesCols)

/-- The bias as a row: the reference's `[64] → [1, 64]` broadcast read at `(0, q)` is the bias at `q`. -/
theorem biasRow_ref (x3 : (⟨S64, .f32⟩ : BufTy).Contents (Elt Ideal)) (q : Fin 64) :
    val_main_v48 (F := Ideal) x3 (ix2 (0 : Fin 1) q) = x3 (ix1 q) := by
  rw [val_main_v48_apply]
  exact congrArg x3 (funext fun a => Fin.ext (by match a with | ⟨0, _⟩ => rfl))

/-- The reference's result, entry by entry: the sum of the two chain stages plus the bias row, clamped below at zero. -/
theorem reference_eq (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    val_main_v51 (F := Ideal) x0 x1 x2 x3
      = biasRelu (aggregate (val_main_v5 (F := Ideal) x0 x2) x1) (selfLoop (val_main_v5 (F := Ideal) x0 x2) x1) (val_main_v48 (F := Ideal) x3) := by
  funext i
  have hi : idx_main_v49 i = ix2 (0 : Fin 1) (i 1) :=
    funext fun a => Fin.ext (by match a with | ⟨0, _⟩ => rfl | ⟨1, _⟩ => rfl)
  rw [val_main_v51_apply, val_main_v50_apply, val_main_v47_apply, val_main_v49_apply, val_main_call0_v0_apply,
    val_main_call0_cst_apply, hi, aggregate_ref, selfLoop_ref]
  rfl

/-- The host's product of the features with a 64×64 right operand is rows times columns, entry by entry. -/
theorem product_eq (x : (⟨S100000x64, .f32⟩ : BufTy).Contents (Elt Ideal)) (wt : (⟨S64x64, .f32⟩ : BufTy).Contents (Elt Ideal)) :
    Host.dotGeneral (F := Ideal) (φ₁ := .f32) (φ₂ := .f32) dot_S100000x64_S64x64_S100000x64_1_0_0_1_n_n none x wt = rowsTimesCols x wt := by
  funext i
  obtain ⟨e, q, rfl⟩ : ∃ (e : Fin 100000) (q : Fin 64), i = ix2 e q := ⟨i 0, i 1, eq_ix2 i⟩
  simp only [Host.dotGeneral]
  exact dotGeneral_plain_apply dot_S100000x64_S64x64_S100000x64_1_0_0_1_n_n none _ rfl rfl
    lhs_main_v5_0 lhs_main_v5_1 rhs_main_v5_0 rhs_main_v5_1 x wt e q

/-- The bias-add-clamp reads its bias row only at row 0. -/
theorem biasRelu_row_congr (a s : FVec Ideal S100000x64 .f32) (B B' : FVec Ideal S1x64 .f32)
    (h : ∀ q : Fin 64, B (ix2 (0 : Fin 1) q) = B' (ix2 (0 : Fin 1) q)) : biasRelu a s B = biasRelu a s B' := by
  funext i
  unfold Cert.KernelIdeal.Epilogue.biasRelu
  rw [h (i 1)]

/-- The whole layer as ONE function of the four argument arrays: features, edge array, weights, bias. -/
def layer (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    (⟨S100000x64, .f32⟩ : BufTy).Contents (Elt Ideal) :=
  biasRelu (aggregate (rowsTimesCols x0 (val_main_v4 (F := Ideal) x2)) x1) (selfLoop (rowsTimesCols x0 (val_main_v4 (F := Ideal) x2)) x1)
    (val_main_v48 (F := Ideal) x3)

/-- The reference computes the layer: its product stage is rows times columns. -/
theorem reference_layer (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    val_main_v51 (F := Ideal) x0 x1 x2 x3 = layer x0 x1 x2 x3 := by
  rw [reference_eq]
  unfold layer
  rw [show val_main_v5 (F := Ideal) x0 x2
      = Host.dotGeneral (F := Ideal) (φ₁ := .f32) (φ₂ := .f32) dot_S100000x64_S64x64_S100000x64_1_0_0_1_n_n none x0 (val_main_v4 (F := Ideal) x2) from rfl,
    product_eq]

end Cert.MessagePassing

end
-- ==== Proof.KernelRun.lean ====
/-
  The kernel program's run with its result named, and that result as a function of the launch arrays.

  The program is four segments: a host stretch (slice and reshape the edge rows, transpose the weights), the linear
  kernel, a second host stretch (degrees, inverse roots, edge weights, the aggregation scatter, the self-loop term, the
  bias as a row), and the epilogue kernel. Buffer contents are threaded boundary to boundary: a host stretch leaves every
  buffer at the composition of its operations; a kernel leaves its output array at what its tiles wrote and every other
  buffer alone. Reading the result buffer at the last boundary and walking back:

    result  = bias-add-clamp of (aggregated, self-loop, bias row)     as the epilogue found them,
    aggregated, self-loop = the shared message-passing chain at `xw` and the edge array,
    xw      = rows times columns of the features and the transposed weights   (the linear kernel's output),

  the edge array, features, weights and bias being the launch contents, which nothing overwrites.
-/
import proofs.«170078_j88527865905439_1_alg».proof.Proof.Gen.KernelIdeal.Frame
import proofs.«170078_j88527865905439_1_alg».proof.Proof.LinearValue
import proofs.«170078_j88527865905439_1_alg».proof.Proof.EpilogueValue
import proofs.«170078_j88527865905439_1_alg».proof.Proof.MessagePassing
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched: the segments' run, the last thread state read against the final state at the
    result buffer as well as at the arguments. -/
theorem run_named : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

/-! ## The result buffer at the last boundary, walked back to the launch arrays -/

section Value

open Cert.KernelIdeal.Linear (rowsTimesCols)
open Cert.KernelIdeal.Epilogue (biasRelu)
open Cert.MessagePassing (aggregate selfLoop)

variable (m : (ℓ : Loc nD τ sig) → Buf (Elt Ideal) ℓ) (ρ : Dev nD → PrngReg)

/-- The first host stretch leaves the features as launched … -/
theorem features_entry (c : Dev nD) : V1 m ρ c main_arg0 = m ((c.tc : Thread nD τ).loc main_arg0) := by
  show StableHlo.after hostOps0 (W0 m ρ c) (Proc.devRef .tc main_arg0) = _
  after_results

/-- … and writes the transposed weights. -/
theorem weights_entry (c : Dev nD) :
    V1 m ρ c main_v4 = transpose S64x64 [1, 0] (m ((c.tc : Thread nD τ).loc main_arg2)) transposes_S64x64_S64x64_1_0 := by
  show StableHlo.after hostOps0 (W0 m ρ c) (Proc.devRef .tc main_v4) = _
  after_results

/-- The linear kernel's output array: rows times columns of the features and the transposed weights. -/
theorem xw_eq (c : Dev nD) :
    W2 m ρ c (Proc.devRef .tc main_v5)
      = rowsTimesCols (m ((c.tc : Thread nD τ).loc main_arg0))
          (transpose S64x64 [1, 0] (m ((c.tc : Thread nD τ).loc main_arg2)) transposes_S64x64_S64x64_1_0) := by
  rw [show W2 m ρ c (Proc.devRef .tc main_v5) = (dat0 (V1 m ρ) c).arrAt 2 cfg0.N from W2_arr m ρ c 2,
    Cert.KernelIdeal.Linear.final, features_entry, weights_entry]

/-- The source row of the edge array, as the first host stretch wrote it and the linear kernel left it. -/
theorem src_entry (c : Dev nD) :
    W2 m ρ c (Proc.devRef .tc main_v1)
      = shapeCast S1000000 (extractStridedSlice S1x1000000 ![0, 0] (m ((c.tc : Thread nD τ).loc main_arg1)) slices_S2x1000000_S1x1000000_0_0)
          shapeCasts_S1x1000000_S1000000 := by
  rw [W2_of_ne m ρ c main_v1 (by decide)]
  show StableHlo.after hostOps0 (W0 m ρ c) (Proc.devRef .tc main_v1) = _
  after_results
  rfl

/-- The destination row of the edge array, likewise. -/
theorem dst_entry (c : Dev nD) :
    W2 m ρ c (Proc.devRef .tc main_v3)
      = shapeCast S1000000 (extractStridedSlice S1x1000000 ![1, 0] (m ((c.tc : Thread nD τ).loc main_arg1)) slices_S2x1000000_S1x1000000_1_0)
          shapeCasts_S1x1000000_S1000000 := by
  rw [W2_of_ne m ρ c main_v3 (by decide)]
  show StableHlo.after hostOps0 (W0 m ρ c) (Proc.devRef .tc main_v3) = _
  after_results
  rfl

/-- The bias, untouched up to the second host stretch. -/
theorem bias_kept (c : Dev nD) : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results

/-- The epilogue's first input: the shared chain's aggregation at the linear kernel's output. -/
theorem aggregated_entry (c : Dev nD) :
    V3 m ρ c main_v40 = aggregate (W2 m ρ c (Proc.devRef .tc main_v5)) (m ((c.tc : Thread nD τ).loc main_arg1)) := by
  show StableHlo.after hostOps1 (W2 m ρ c) (Proc.devRef .tc main_v40) = _
  after_results_simp
  rw [src_entry, dst_entry]
  rfl

/-- The epilogue's second input: the shared chain's self-loop term at the linear kernel's output. -/
theorem selfLoop_entry (c : Dev nD) :
    V3 m ρ c main_v46 = selfLoop (W2 m ρ c (Proc.devRef .tc main_v5)) (m ((c.tc : Thread nD τ).loc main_arg1)) := by
  show StableHlo.after hostOps1 (W2 m ρ c) (Proc.devRef .tc main_v46) = _
  after_results_simp
  rw [dst_entry]
  rfl

/-- The epilogue's third input: the bias reshaped to one row. -/
theorem biasRow_entry (c : Dev nD) :
    V3 m ρ c main_v47 = shapeCast S1x64 (m ((c.tc : Thread nD τ).loc main_arg3)) shapeCasts_S64_S1x64 := by
  show StableHlo.after hostOps1 (W2 m ρ c) (Proc.devRef .tc main_v47) = _
  after_results_simp
  rw [bias_kept]
  rfl

/-- The result buffer at the last boundary, as a function of the launch arrays. -/
theorem result_eq (c : Dev nD) :
    W4 m ρ c (Proc.devRef .tc main_v48)
      = biasRelu
          (aggregate (rowsTimesCols (m ((c.tc : Thread nD τ).loc main_arg0))
              (transpose S64x64 [1, 0] (m ((c.tc : Thread nD τ).loc main_arg2)) transposes_S64x64_S64x64_1_0))
            (m ((c.tc : Thread nD τ).loc main_arg1)))
          (selfLoop (rowsTimesCols (m ((c.tc : Thread nD τ).loc main_arg0))
              (transpose S64x64 [1, 0] (m ((c.tc : Thread nD τ).loc main_arg2)) transposes_S64x64_S64x64_1_0))
            (m ((c.tc : Thread nD τ).loc main_arg1)))
          (shapeCast S1x64 (m ((c.tc : Thread nD τ).loc main_arg3)) shapeCasts_S64_S1x64) := by
  rw [show W4 m ρ c (Proc.devRef .tc main_v48) = (dat1 (V3 m ρ) c).arrAt 3 cfg1.N from W4_arr m ρ c 3,
    Cert.KernelIdeal.Epilogue.final, aggregated_entry, selfLoop_entry, biasRow_entry, xw_eq]

end Value

end Cert.KernelIdeal.Whole

end
-- ==== Proof.KernelLayer.lean ====
/-
  The kernel program computes the layer.

  The result buffer holds the bias-add-clamp of the shared chain at rows times columns, with the bias as the kernel
  wrote it: the `[64]` vector reshaped to one `[1, 64]` row. The layer function has the bias as the reference wrote it:
  the vector broadcast to a `[1, 64]` row. Both rows hold `bias q` at `(0, q)`, and the bias-add-clamp reads row 0
  only; the transposed weights are one and the same array on both sides.
-/
import proofs.«170078_j88527865905439_1_alg».proof.Proof.KernelRun
import proofs.«170078_j88527865905439_1_alg».proof.Proof.MessagePassing
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.ValueIdx

/-- The reshaped bias row and the broadcast bias row agree at `(0, q)`: both are `bias q`. -/
theorem biasRow_eq (b : FVec Ideal S64 .f32) (q : Fin 64) :
    shapeCast S1x64 b shapeCasts_S64_S1x64 (ix2 (0 : Fin 1) q)
      = Cert.ReferenceIdeal.Read.val_main_v48 (F := Ideal) b (ix2 (0 : Fin 1) q) := by
  rw [Cert.MessagePassing.biasRow_ref]
  exact shapeCast_apply b shapeCasts_S64_S1x64 (ix2 (0 : Fin 1) q) (ix1 q)
    (by rewrite [Shape.rowMajor_val_one, Shape.rowMajor_val_two]; show q.val = 0 * 64 + q.val; omega)

variable (m : (ℓ : Loc nD τ sig) → Buf (Elt Ideal) ℓ) (ρ : Dev nD → PrngReg)

/-- The result buffer at the last boundary is the layer function of the four launch arrays. -/
theorem kernel_layer (c : Dev nD) :
    W4 m ρ c (Proc.devRef .tc main_v48)
      = Cert.MessagePassing.layer (m ((c.tc : Thread nD τ).loc main_arg0)) (m ((c.tc : Thread nD τ).loc main_arg1))
          (m ((c.tc : Thread nD τ).loc main_arg2)) (m ((c.tc : Thread nD τ).loc main_arg3)) := by
  rw [result_eq]
  unfold Cert.MessagePassing.layer
  exact Cert.MessagePassing.biasRelu_row_congr _ _ _ _ (biasRow_eq _)

end Cert.KernelIdeal.Whole

end
-- ==== Proof.lean ====
/- The proof of `Cert.Claim`: a graph-convolution layer with self-loops of weight 2, followed by a clamp at zero.

   Both programs compute, for features `x`, an edge array, weights `W` and a bias `b`,
       out = max ((aggregate xw + selfLoop xw) + b) 0,      xw = x · Wᵀ,
   where `aggregate` sums the rows `dinv[src] · dinv[dst] · xw[src]` over the edges into their destination rows,
   `selfLoop xw = 2 · dinv² · xw`, and `dinv` is the inverse square root of (in-degree + 2). The reference computes `xw` by one
   host matrix product and the rest by host operations. The kernel program computes `xw` in a row-tiled kernel (ten
   tiles of 10000 rows, the operands narrowed on the way in — the identity on exact values), the degree, gather and
   scatter steps by the SAME host operations, and the final sum, bias and clamp in a second row-tiled kernel.

   So the two results are one function of the four arguments (`Cert.MessagePassing.layer`):
     · the linear kernel's output is rows times columns (Proof/LinearValue.lean) and so is the host's product
       (Proof/MessagePassing.lean `product_eq`, over the general law of Proof/LibDense.lean);
     · the shared host chain is carried unopened as two functions of `xw` and the edge array (Proof/MessagePassing.lean);
     · the epilogue kernel's output is the entry-by-entry sum, bias row and clamp (Proof/EpilogueValue.lean), which is what
       the reference's last host operations compute (`reference_eq`);
     · the kernel program's run threads these through its four segments (Proof/KernelRun.lean, Proof/KernelLayer.lean).
   No step needs the inputs to be finite: sums and products are only regrouped, never distributed or cancelled.

   The three frames are the generated ones (the reference's is its generated run with the result dropped); the
   idealization rewrote no operation, so `preserves` is trivial. -/
import proofs.«170078_j88527865905439_1_alg».proof.Defs
import proofs.«170078_j88527865905439_1_alg».proof.Proof.Gen.Kernel
import proofs.«170078_j88527865905439_1_alg».proof.Proof.Gen.Kernel.Skeleton
import proofs.«170078_j88527865905439_1_alg».proof.Proof.Gen.Kernel.Launch
import proofs.«170078_j88527865905439_1_alg».proof.Proof.Gen.Kernel.Points
import proofs.«170078_j88527865905439_1_alg».proof.Proof.Gen.Kernel.Frame
import proofs.«170078_j88527865905439_1_alg».proof.Proof.Gen.KernelIdeal
import proofs.«170078_j88527865905439_1_alg».proof.Proof.Gen.KernelIdeal.Skeleton
import proofs.«170078_j88527865905439_1_alg».proof.Proof.Gen.KernelIdeal.Launch
import proofs.«170078_j88527865905439_1_alg».proof.Proof.Gen.KernelIdeal.Points
import proofs.«170078_j88527865905439_1_alg».proof.Proof.Gen.KernelIdeal.Frame
import proofs.«170078_j88527865905439_1_alg».proof.Proof.Gen.ReferenceIdeal
import proofs.«170078_j88527865905439_1_alg».proof.Proof.Gen.Pre_finite_inputs
import proofs.«170078_j88527865905439_1_alg».proof.Proof.Gen.ReferenceIdeal.Run
import proofs.«170078_j88527865905439_1_alg».proof.Proof.Gen.ReferenceIdeal.Read
import proofs.«170078_j88527865905439_1_alg».proof.Proof.MessagePassing
import proofs.«170078_j88527865905439_1_alg».proof.Proof.KernelRun
import proofs.«170078_j88527865905439_1_alg».proof.Proof.KernelLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer function of the (agreeing) arguments in their result buffers. -/
theorem algebraic : Cert.algebraic_KernelIdeal_ReferenceIdeal := by
  intro m ρ m' ρ' _ hagree
  refine ⟨fun c => Cert.MessagePassing.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.kernel_layer m ρ c), (h c).2⟩)
      (Cert.KernelIdeal.Whole.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, Cert.MessagePassing.reference_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
